-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x256 : Shape := ⟨2, ![800000, 256]⟩
abbrev S800000x2 : Shape := ⟨2, ![800000, 2]⟩
abbrev S512x512 : Shape := ⟨2, ![512, 512]⟩
abbrev S512x256 : Shape := ⟨2, ![512, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x256 : S_.BroadcastsInDim S800000x256 (![] : Fin 0 → Fin S800000x256.rank)
  reducesTo_S800000x256_S_d0_1 : S800000x256.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S50000x256 .f32) (main_arg1 : FVec F S800000x256 .f32) (main_arg2 : IVec S800000x2 32) (main_arg3 : FVec F S512x512 .f32) (main_arg4 : FVec F S512x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x256 .f32 := Host.absf main_arg1
  let main_cst_0 : FVec F S_ .f32 := constant S_ .f32 0x7F800000#32
  let main_v5 : FVec F S800000x256 .f32 := broadcastInDim S800000x256 ![] bcast_S_S800000x256 main_cst_0
  let main_v6 : IVec S800000x256 1 := cmpf .olt main_v4 main_v5
  let main_c_1 : IVec S_ 1 := constantI S_ 1 1#1
  let main_v7 : IVec S_ 1 := (fun x v => Host.reduce IntOp.andi x v reducesTo_S800000x256_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S50000x256 : Shape := ⟨2, ![50000, 256]⟩
abbrev S800000x256 : Shape := ⟨2, ![800000, 256]⟩
abbrev S800000x2 : Shape := ⟨2, ![800000, 2]⟩
abbrev S512x512 : Shape := ⟨2, ![512, 512]⟩
abbrev S512x256 : Shape := ⟨2, ![512, 256]⟩
abbrev S800000x1 : Shape := ⟨2, ![800000, 1]⟩
abbrev S800000 : Shape := ⟨1, ![800000]⟩
abbrev S_ : Shape := ⟨0, ![]⟩
abbrev S2000x256 : Shape := ⟨2, ![2000, 256]⟩
abbrev S2000x512 : Shape := ⟨2, ![2000, 512]⟩

abbrev nBuf : Space → Nat
  | .hbm => 14
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S800000x256, .f32⟩
  | .hbm, ⟨2, _⟩ => ⟨S800000x2, .i32⟩
  | .hbm, ⟨3, _⟩ => ⟨S512x512, .f32⟩
  | .hbm, ⟨4, _⟩ => ⟨S512x256, .f32⟩
  | .hbm, ⟨5, _⟩ => ⟨S800000x1, .i32⟩
  | .hbm, ⟨6, _⟩ => ⟨S800000, .i32⟩
  | .hbm, ⟨7, _⟩ => ⟨S_, .f32⟩
  | .hbm, ⟨8, _⟩ => ⟨S50000x256, .f32⟩
  | .hbm, ⟨9, _⟩ => ⟨S800000x1, .i32⟩
  | .hbm, ⟨10, _⟩ => ⟨S50000x256, .f32⟩
  | .hbm, ⟨11, _⟩ => ⟨S512x512, .bf16⟩
  | .hbm, ⟨12, _⟩ => ⟨S512x256, .bf16⟩
  | .hbm, ⟨13, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S512x512, .bf16⟩
  | .local _ .vmem, ⟨5, _⟩ => ⟨S512x256, .bf16⟩
  | .local _ .vmem, ⟨6, _⟩ => ⟨S2000x256, .f32⟩
  | .local _ .vmem, ⟨7, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S800000x2_S800000x1_0_0 : S800000x2.Slices ![0, 0] S800000x1
  shapeCasts_S800000x1_S800000 : S800000x1.ShapeCasts S800000
  bcast_S_S50000x256 : S_.BroadcastsInDim S50000x256 (![] : Fin 0 → Fin S50000x256.rank)
  bcast_S800000_S800000x1_0 : S800000.BroadcastsInDim S800000x1 (![0] : Fin 1 → Fin S800000x1.rank)
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  concatenates_S2000x256_S2000x256_S2000x512_d1 : Shape.Concatenates [S2000x256, S2000x256] S2000x512 1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  scatter_S50000x256_S800000x1_S800000x256_1_0_0_1_wf : ScatterDims.WF S50000x256 S800000x1 S800000x256 [1] [0] [0] 1
  dot_S2000x512_S512x512_S2000x512_1_0_0_1_n_n_wf : DotDims.WF S2000x512 S512x512 S2000x512 [1] [0] [0] [1] [] []
  dot_S2000x512_S512x256_S2000x256_1_0_0_1_n_n_wf : DotDims.WF S2000x512 S512x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .f32 = 32 ∨ (Rect.block (s := S50000x256) S2000x256.size (cc0_transform_4 i) (hinb0_4 i)).WholeWords (EltTy.packing .f32)

variable [Facts₀]

def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000x256 : Shape := ⟨2, ![800000, 256]⟩
abbrev S800000x2 : Shape := ⟨2, ![800000, 2]⟩
abbrev S512x512 : Shape := ⟨2, ![512, 512]⟩
abbrev S512x256 : Shape := ⟨2, ![512, 256]⟩
abbrev S800000x1 : Shape := ⟨2, ![800000, 1]⟩
abbrev S800000 : Shape := ⟨1, ![800000]⟩
abbrev S_ : Shape := ⟨0, ![]⟩
abbrev S50000x512 : Shape := ⟨2, ![50000, 512]⟩

abbrev nBuf : Space → Nat
  | .hbm => 17
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x256, .f32⟩
  | .hbm, ⟨2, _⟩ => ⟨S800000x2, .i32⟩
  | .hbm, ⟨3, _⟩ => ⟨S512x512, .f32⟩
  | .hbm, ⟨4, _⟩ => ⟨S512x256, .f32⟩
  | .hbm, ⟨5, _⟩ => ⟨S800000x1, .i32⟩
  | .hbm, ⟨6, _⟩ => ⟨S800000, .i32⟩
  | .hbm, ⟨7, _⟩ => ⟨S_, .f32⟩
  | .hbm, ⟨8, _⟩ => ⟨S50000x256, .f32⟩
  | .hbm, ⟨9, _⟩ => ⟨S800000x1, .i32⟩
  | .hbm, ⟨10, _⟩ => ⟨S50000x256, .f32⟩
  | .hbm, ⟨11, _⟩ => ⟨S50000x512, .f32⟩
  | .hbm, ⟨12, _⟩ => ⟨S50000x512, .f32⟩
  | .hbm, ⟨13, _⟩ => ⟨S_, .f32⟩
  | .hbm, ⟨14, _⟩ => ⟨S50000x512, .f32⟩
  | .hbm, ⟨15, _⟩ => ⟨S50000x512, .f32⟩
  | .hbm, ⟨16, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  bcast_S_S50000x256 : S_.BroadcastsInDim S50000x256 (![] : Fin 0 → Fin S50000x256.rank)
  bcast_S800000_S800000x1_0 : S800000.BroadcastsInDim S800000x1 (![0] : Fin 1 → Fin S800000x1.rank)
  concatenates_S50000x256_S50000x256_S50000x512_d1 : Shape.Concatenates [S50000x256, S50000x256] S50000x512 1
  bcast_S_S50000x512 : S_.BroadcastsInDim S50000x512 (![] : Fin 0 → Fin S50000x512.rank)
  scatter_S50000x256_S800000x1_S800000x256_1_0_0_1_wf : ScatterDims.WF S50000x256 S800000x1 S800000x256 [1] [0] [0] 1
  dot_S50000x512_S512x512_S50000x512_1_0_0_1_n_n_wf : DotDims.WF S50000x512 S512x512 S50000x512 [1] [0] [0] [1] [] []
  dot_S50000x512_S512x256_S50000x256_1_0_0_1_n_n_wf : DotDims.WF S50000x512 S512x256 S50000x256 [1] [0] [0] [1] [] []

variable [Facts₀]

def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibJoinCols.lean ====
/-
  Two matrices with the same number of rows laid side by side, read at an entry. If `x` is n × a and `y` is n × b,
  their concatenation along the column axis is n × c (the shape record's side condition makes c = a + b); its entry
  (p, k) is `x (p, k)` when k < a and `y (p, k - a)` otherwise.
-/
import Idealize.ShloMosaic.Lib.ValueIdx
import Idealize.ShloMosaic.Lib.Pipeline.Value

noncomputable section

namespace Cert.Lib.JoinCols

open Idealize.ShloMosaic Idealize.ShloMosaic.ValueIdx

variable {α : Type}

/-- A column position inside the first matrix reads the first matrix there. -/
theorem concat_cols_left {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : k.val < a) :
    concatenate (⟨2, ![n, c]⟩ : Shape) (1 : Fin 2) [⟨⟨2, ![n, a]⟩, x⟩, ⟨⟨2, ![n, b]⟩, y⟩] h (ix2 p k) = x (ix2 p ⟨k.val, hk⟩) :=
  concatenate_pair_apply_left (1 : Fin 2) x y h (ix2 p k) rfl (ix2 p ⟨k.val, hk⟩) (fun d => by
    match d with
    | ⟨0, _⟩ => rfl
    | ⟨1, _⟩ => rfl)

/-- A column position past the first matrix reads the second matrix, the first one's width less. -/
theorem concat_cols_right {n a b c : Nat} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ (1 : Fin 2))
    (p : Fin n) (k : Fin c) (hk : a ≤ k.val) (hb : k.val - a < b) :
    concatenate (⟨2, ![n, c]⟩ : Shape) (1 : Fin 2) [⟨⟨2, ![n, a]⟩, x⟩, ⟨⟨2, ![n, b]⟩, y⟩] h (ix2 p k) = y (ix2 p ⟨k.val - a, hb⟩) :=
  concatenate_pair_apply_right (1 : Fin 2) x y h (ix2 p k) rfl rfl (ix2 p ⟨k.val - a, hb⟩) (fun d hd => by
    match d with
    | ⟨0, _⟩ => rfl
    | ⟨1, _⟩ => exact absurd rfl hd) (by show k.val - a + a = k.val; omega)

end Cert.Lib.JoinCols

end
-- ==== Proof.NodeNet.lean ====
/-
  The network a node's features pass through, one node at a time, over the extended reals.

  A node carries 256 features of its own, `u`, and 256 features `v` summed into it from the edges that point at it.
  The two rows are laid end to end into one row of 512, `u ‖ v`; that row is multiplied by a 512 × 512 weight matrix,
  every entry of the product is clipped below at the value of the zero word, and the clipped row is multiplied by a
  512 × 256 weight matrix:

      out q  =  Σⱼ  max (Σₖ (u ‖ v) k · W₁ k j) 0  ·  W₂ j q.

  Addition and multiplication of extended reals are commutative and associative, so a finite sum does not depend on
  the order or the grouping of its terms; that is the only law the comparison of the two programs uses, and it holds at
  the infinities too. The zero the hidden row is clipped at is kept as the 32-bit pattern both programs spell it with:
  the same word on both sides, it is never evaluated.
-/
import Idealize.ShloMosaic.Lib.ValueIdx
import Idealize.ShloMosaic.PureOps.Ideal

noncomputable section

namespace Cert.NodeNet

open Idealize.ShloMosaic Idealize.ShloMosaic.ValueIdx

/-- Two rows of 256 laid end to end: position `k` below 256 reads the first row at `k`, a later position the second
    row at `k - 256`. -/
def joined (u v : Fin 256 → EReal) (k : Fin 512) : EReal :=
  if h : k.val < 256 then u ⟨k.val, h⟩ else v ⟨k.val - 256, by have := k.isLt; omega⟩

/-- The value both programs clip the hidden row at: what the all-zero 32-bit pattern denotes. -/
abbrev floor : EReal := Ideal.ofBits .f32 0x00000000#32

/-- The hidden row of one node: entry `j` is the joined row against column `j` of the first weight matrix, clipped
    below. -/
def hidden (u v : Fin 256 → EReal) (W₁ : Fin 512 → Fin 512 → EReal) (j : Fin 512) : EReal :=
  max (∑ k : Fin 512, joined u v k * W₁ k j) floor

/-- The output row of one node: entry `q` is the hidden row against column `q` of the second weight matrix. -/
def node (u v : Fin 256 → EReal) (W₁ : Fin 512 → Fin 512 → EReal) (W₂ : Fin 512 → Fin 256 → EReal) (q : Fin 256) : EReal :=
  ∑ j : Fin 512, hidden u v W₁ j * W₂ j q

/-- The whole result: row `n` of the 50000 × 256 array is the network's output on node `n`'s own features (row `n`
    of `r`) and its summed messages (row `n` of `msg`). -/
def net (r msg : (⟨2, ![50000, 256]⟩ : Shape).Idx → EReal) (W₁ : (⟨2, ![512, 512]⟩ : Shape).Idx → EReal)
    (W₂ : (⟨2, ![512, 256]⟩ : Shape).Idx → EReal) : (⟨2, ![50000, 256]⟩ : Shape).Idx → EReal := fun i =>
  node (fun k => r (ix2 (i 0) k)) (fun k => msg (ix2 (i 0) k)) (fun k j => W₁ (ix2 k j)) (fun j q => W₂ (ix2 j q)) (i 1)

/-- The network's output depends on its arguments only through their entries. -/
theorem node_congr {u u' v v' : Fin 256 → EReal} {W₁ W₁' : Fin 512 → Fin 512 → EReal} {W₂ W₂' : Fin 512 → Fin 256 → EReal}
    {q q' : Fin 256} (hu : ∀ k, u k = u' k) (hv : ∀ k, v k = v' k) (h₁ : ∀ k j, W₁ k j = W₁' k j)
    (h₂ : ∀ j q, W₂ j q = W₂' j q) (hq : q = q') : node u v W₁ W₂ q = node u' v' W₁' W₂' q' := by
  obtain rfl : u = u' := funext hu
  obtain rfl : v = v' := funext hv
  obtain rfl : W₁ = W₁' := funext fun k => funext (h₁ k)
  obtain rfl : W₂ = W₂' := funext fun j => funext (h₂ j)
  rw [hq]

end Cert.NodeNet

end
-- ==== Proof.KernelRow.lean ====
/-
  One grid step of the kernel, read at an entry. The step loads a block of 2000 nodes' own features `x0`, the same
  nodes' summed messages `x1`, and the two weight matrices `x2` (512 × 512) and `x3` (512 × 256); it joins the
  two feature blocks side by side, multiplies by `x2` into a zero accumulator, clips below at zero, and multiplies by
  `x3` into a zero accumulator. Over the extended reals a change of float format is the identity and a matrix product
  into a zero accumulator is the plain sum over the contracted axis, so entry (p, q) of what the step stores is the
  node network `NodeNet.node` on row p of `x0` and row p of `x1`.
-/
import proofs.«172294_j5325759447401_1_alg».proof.Proof.Gen.KernelIdeal.Skeleton
import proofs.«172294_j5325759447401_1_alg».proof.Proof.LibDotEntry
import proofs.«172294_j5325759447401_1_alg».proof.Proof.LibJoinCols
import proofs.«172294_j5325759447401_1_alg».proof.Proof.NodeNet
import Idealize.ShloMosaic.Lib.Pipeline.Value
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.TcCoe Idealize.ShloMosaic.ValueIdx
open Cert.Lib.DotEntry Cert.Lib.JoinCols

/-! ## Where the two products' dimension numbers send an index -/

theorem first_l0 (i : S2000x512.Idx) (c : dot_S2000x512_S512x512_S2000x512_1_0_0_1_n_n.contr.Idx) :
    (dot_S2000x512_S512x512_S2000x512_1_0_0_1_n_n.lhsIdx i c 0).val = (i 0).val := by
  unfold DotDims.lhsIdx
  rw [dif_neg (show ¬(0 : Fin S2000x512.rank) ∈ dot_S2000x512_S512x512_S2000x512_1_0_0_1_n_n.lhsBatch by decide),
    dif_pos (show (0 : Fin S2000x512.rank) ∈ dot_S2000x512_S512x512_S2000x512_1_0_0_1_n_n.lhsNonContracting by decide)]
  rfl

theorem first_r1 (i : S2000x512.Idx) (c : dot_S2000x512_S512x512_S2000x512_1_0_0_1_n_n.contr.Idx) :
    (dot_S2000x512_S512x512_S2000x512_1_0_0_1_n_n.rhsIdx i c 1).val = (i 1).val := by
  unfold DotDims.rhsIdx
  rw [dif_neg (show ¬(1 : Fin S512x512.rank) ∈ dot_S2000x512_S512x512_S2000x512_1_0_0_1_n_n.rhsBatch by decide),
    dif_pos (show (1 : Fin S512x512.rank) ∈ dot_S2000x512_S512x512_S2000x512_1_0_0_1_n_n.rhsNonContracting by decide)]
  rfl

theorem second_l0 (i : S2000x256.Idx) (c : dot_S2000x512_S512x256_S2000x256_1_0_0_1_n_n.contr.Idx) :
    (dot_S2000x512_S512x256_S2000x256_1_0_0_1_n_n.lhsIdx i c 0).val = (i 0).val := by
  unfold DotDims.lhsIdx
  rw [dif_neg (show ¬(0 : Fin S2000x512.rank) ∈ dot_S2000x512_S512x256_S2000x256_1_0_0_1_n_n.lhsBatch by decide),
    dif_pos (show (0 : Fin S2000x512.rank) ∈ dot_S2000x512_S512x256_S2000x256_1_0_0_1_n_n.lhsNonContracting by decide)]
  rfl

theorem second_r1 (i : S2000x256.Idx) (c : dot_S2000x512_S512x256_S2000x256_1_0_0_1_n_n.contr.Idx) :
    (dot_S2000x512_S512x256_S2000x256_1_0_0_1_n_n.rhsIdx i c 1).val = (i 1).val := by
  unfold DotDims.rhsIdx
  rw [dif_neg (show ¬(1 : Fin S512x256.rank) ∈ dot_S2000x512_S512x256_S2000x256_1_0_0_1_n_n.rhsBatch by decide),
    dif_pos (show (1 : Fin S512x256.rank) ∈ dot_S2000x512_S512x256_S2000x256_1_0_0_1_n_n.rhsNonContracting by decide)]
  rfl

/-! ## The stored block at an entry -/

/-- Entry (p, q) of the block one grid step stores is the network's output q on the p-th node of the step's block:
    its own features are row p of `x0`, its summed messages row p of `x1`. -/
theorem pay_entry (x0 x1 : Vec Ideal S2000x256 .f32) (x2 : Vec Ideal S512x512 .bf16) (x3 : Vec Ideal S512x256 .bf16)
    (p : Fin 2000) (q : Fin 256) :
    k0_pay1 (F := Ideal) x0 x1 x2 x3 (ix2 p q)
      = NodeNet.node (fun k => x0 (ix2 p k)) (fun k => x1 (ix2 p k)) (fun k j => x2 (ix2 k j)) (fun j q => x3 (ix2 j q)) q := by
  unfold k0_pay1
  -- the second product: the sum over the hidden axis
  refine (matmul_zero_ix2 (φ₁ := .bf16) (φ₂ := .bf16) dot_S2000x512_S512x256_S2000x256_1_0_0_1_n_n rfl rfl second_l0
    (fun i c => dot_S2000x512_S512x256_S2000x256_1_0_0_1_n_n.lhsIdx_val_of_single rfl i c)
    (fun i c => dot_S2000x512_S512x256_S2000x256_1_0_0_1_n_n.rhsIdx_val_of_single rfl i c) second_r1 _ _ p q).trans ?_
  unfold NodeNet.node
  refine Finset.sum_congr rfl fun j _ => ?_
  -- a cast between equal shapes changes nothing
  have e1 : shapeCast S2000x256 x1 shapeCasts_S2000x256_S2000x256 = x1 := shapeCast_self x1 _
  have e2 : shapeCast S512x512 x2 shapeCasts_S512x512_S512x512 = x2 := shapeCast_self x2 _
  have e3 : shapeCast S512x256 x3 shapeCasts_S512x256_S512x256 = x3 := shapeCast_self x3 _
  rw [e1, e2, e3]
  refine congrArg (· * x3 (ix2 j q)) ?_
  -- the clipped hidden entry: format changes vanish, the maximum and the splat are entry by entry
  have clip : ∀ M : FVec Ideal S2000x512 .f32,
      truncf (F := Ideal) .bf16 (maximumf M (broadcast S2000x512 (FloatOps.ofBits (F := Ideal) .f32 0x00000000#32))) bitsLt_bf16_f32 (ix2 p j)
        = max (M (ix2 p j)) NodeNet.floor := fun _ => rfl
  refine (clip _).trans ?_
  unfold NodeNet.hidden
  refine congrArg (max · NodeNet.floor) ?_
  -- the first product: the sum over the joined row
  refine (matmul_zero_ix2 (φ₁ := .bf16) (φ₂ := .bf16) dot_S2000x512_S512x512_S2000x512_1_0_0_1_n_n rfl rfl first_l0
    (fun i c => dot_S2000x512_S512x512_S2000x512_1_0_0_1_n_n.lhsIdx_val_of_single rfl i c)
    (fun i c => dot_S2000x512_S512x512_S2000x512_1_0_0_1_n_n.rhsIdx_val_of_single rfl i c) first_r1 _ _ p j).trans ?_
  refine Finset.sum_congr rfl fun k _ => ?_
  refine congrArg (· * x2 (ix2 k j)) ?_
  -- the joined row: the first 256 positions are the node's own features, the rest its messages
  show concatenate S2000x512 1 [⟨S2000x256, x0⟩, ⟨S2000x256, x1⟩] concatenates_S2000x256_S2000x256_S2000x512_d1 (ix2 p k) = _
  unfold NodeNet.joined
  split
  · next hk => exact concat_cols_left x0 x1 concatenates_S2000x256_S2000x256_S2000x512_d1 p k hk
  · next hk => exact concat_cols_right x0 x1 concatenates_S2000x256_S2000x256_S2000x512_d1 p k (by omega) _

end Cert.KernelIdeal.RowValue

end
-- ==== Proof.Messages.lean ====
/-
  The messages summed into the nodes. Both programs compute them on the host, before anything else, by the same four
  operations: the first column of the edge table `nbrs` is cut out and laid as a column of 800000 row numbers, a
  50000 × 256 array of zeros is made, and the 800000 rows of edge features `h` are scatter-added into the zero array
  at the rows the column names. The comparison of the two programs never looks inside this array: it is the same
  function of `h` and `nbrs` on both sides.
-/
import proofs.«172294_j5325759447401_1_alg».proof.Proof.Gen.KernelIdeal
import Idealize.ShloMosaic.PureOps.Ideal

noncomputable section

namespace Cert.KernelIdeal.HostValue

open Cert.KernelIdeal Cert.KernelIdeal.Gen Idealize.ShloMosaic Idealize.ShloMosaic.TcCoe

/-- Row n of the result holds the edge features summed into node n: the scatter-add of `h` into zeros at the rows
    named by the first column of `nbrs`. -/
def messages (h : (⟨S800000x256, .f32⟩ : BufTy).Contents (Elt Ideal)) (nbrs : (⟨S800000x2, .i32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0
      (shapeCast _ (extractStridedSlice S800000x1 ![0, 0] nbrs slices_S800000x2_S800000x1_0_0) shapeCasts_S800000x1_S800000))
    h

end Cert.KernelIdeal.HostValue

end
-- ==== Proof.Blocks.lean ====
/-
  Where the kernel's 25 grid steps read and write. Step t is handed rows 2000 t … 2000 t + 1999 of the node features
  and of the summed messages, both weight matrices whole, and writes rows 2000 t … 2000 t + 1999 of the result. Here:
  the block positions, decided once over the 25 steps; a block of any array read at an entry; and the fact that the
  25 row blocks of the result cover its 50000 rows, row n lying in the block of step n / 2000.
-/
import proofs.«172294_j5325759447401_1_alg».proof.Proof.Gen.KernelIdeal.Points
import proofs.«172294_j5325759447401_1_alg».proof.Proof.Gen.KernelIdeal.Launch
import Idealize.ShloMosaic.PureOps.Ideal
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen
open Idealize.ShloMosaic Idealize.ShloMosaic.TcCoe Idealize.SL.Sem Idealize.ShloMosaic.ValueIdx

/-- At step t the node features, the messages and the result are at row block t, column block 0; the weight matrices
    at block (0, 0). Decided over the 25 steps. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## A block of an array, read at an entry -/

/-- Entry (p, k) of step t's block of the first operand's array is the array's entry (2000 t + p, k). -/
theorem read_own (A : S50000x256.Idx → EReal) (t : Fin cfg0.N) (p : Fin 2000) (k : Fin 256) (n : Fin 50000)
    (hn : n.val = t.val * 2000 + p.val) :
    (((cfg0.win 0).blk t).view.read (Elt Ideal) A : Vec Ideal S2000x256 .f32) (ix2 p k) = A (ix2 n k) := by
  obtain ⟨e0, e1, -⟩ := block_index t
  rw [View.read_apply]
  refine congrArg A (funext fun a => Fin.ext ?_)
  match a with
  | ⟨0, _⟩ => show win0_0.index t (0 : Fin 2) * 2000 + 1 * p.val = n.val; omega
  | ⟨1, _⟩ => show win0_0.index t (1 : Fin 2) * 256 + 1 * k.val = k.val; omega

/-- Entry (p, k) of step t's block of the second operand's array is the array's entry (2000 t + p, k). -/
theorem read_msg (A : S50000x256.Idx → EReal) (t : Fin cfg0.N) (p : Fin 2000) (k : Fin 256) (n : Fin 50000)
    (hn : n.val = t.val * 2000 + p.val) :
    (((cfg0.win 1).blk t).view.read (Elt Ideal) A : Vec Ideal S2000x256 .f32) (ix2 p k) = A (ix2 n k) := by
  obtain ⟨-, -, e0, e1, -⟩ := block_index t
  rw [View.read_apply]
  refine congrArg A (funext fun a => Fin.ext ?_)
  match a with
  | ⟨0, _⟩ => show win0_1.index t (0 : Fin 2) * 2000 + 1 * p.val = n.val; omega
  | ⟨1, _⟩ => show win0_1.index t (1 : Fin 2) * 256 + 1 * k.val = k.val; omega

/-- Every step's block of the third operand's array is the whole array. -/
theorem read_w1 (A : S512x512.Idx → EReal) (t : Fin cfg0.N) (k j : Fin 512) :
    (((cfg0.win 2).blk t).view.read (Elt Ideal) A : Vec Ideal S512x512 .bf16) (ix2 k j) = A (ix2 k j) := by
  obtain ⟨-, -, -, -, e0, e1, -⟩ := block_index t
  rw [View.read_apply]
  refine congrArg A (funext fun a => Fin.ext ?_)
  match a with
  | ⟨0, _⟩ => show win0_2.index t (0 : Fin 2) * 512 + 1 * k.val = k.val; omega
  | ⟨1, _⟩ => show win0_2.index t (1 : Fin 2) * 512 + 1 * j.val = j.val; omega

/-- Every step's block of the fourth operand's array is the whole array. -/
theorem read_w2 (A : S512x256.Idx → EReal) (t : Fin cfg0.N) (j : Fin 512) (q : Fin 256) :
    (((cfg0.win 3).blk t).view.read (Elt Ideal) A : Vec Ideal S512x256 .bf16) (ix2 j q) = A (ix2 j q) := by
  obtain ⟨-, -, -, -, -, -, e0, e1, -⟩ := block_index t
  rw [View.read_apply]
  refine congrArg A (funext fun a => Fin.ext ?_)
  match a with
  | ⟨0, _⟩ => show win0_3.index t (0 : Fin 2) * 512 + 1 * j.val = j.val; omega
  | ⟨1, _⟩ => show win0_3.index t (1 : Fin 2) * 256 + 1 * q.val = q.val; omega

/-- Entry (p, q) of step t's block of the result sits at row 2000 t + p and column q of the result array. -/
theorem out_pos (t : Fin cfg0.N) (p : Fin 2000) (q : Fin 256) :
    ((((cfg0.win 4).blk t).view.emb (ix2 p q)) 0).val = t.val * 2000 + p.val
      ∧ (((cfg0.win 4).blk t).view.emb (ix2 p q)) 1 = q := by
  obtain ⟨-, -, -, -, -, -, -, -, e0, e1⟩ := block_index t
  refine ⟨?_, Fin.ext ?_⟩
  · show win0_4.index t (0 : Fin 2) * 2000 + 1 * p.val = _; omega
  · show win0_4.index t (1 : Fin 2) * 256 + 1 * q.val = _; omega

/-! ## The result's blocks cover it -/

/-- An index of the result array is in step t's block iff each coordinate is in the block's range on its axis. -/
theorem mem_block (t : Fin cfg0.N) (i : S50000x256.Idx) :
    i ∈ ((cfg0.win 4).blk t).view.set ↔ ∀ a : Fin 2, win0_4.index t a * S2000x256.size a ≤ (i a).val
      ∧ (i a).val < win0_4.index t a * S2000x256.size a + S2000x256.size a := by
  show i ∈ ((View.whole main_v7).slice (win0_4.rect t)).set ↔ _
  rw [View.set_slice_whole, Rect.mem_set_unit]
  exact Iff.rfl

/-- Every row n of the result is written by a step: step n / 2000. -/
theorem covered (i : S50000x256.Idx) :
    ∃ t : Fin cfg0.N, (cfg0.win 4).flush t = true ∧ i ∈ ((cfg0.win 4).blk t).view.set := by
  have h0 : (i 0).val < 50000 := (i 0).isLt
  have h1 : (i 1).val < 256 := (i 1).isLt
  have hN : cfg0.N = 25 := N_0
  have ht : (i 0).val / 2000 < cfg0.N := by rw [hN]; omega
  obtain ⟨-, -, -, -, -, -, -, -, e0, e1⟩ := block_index ⟨(i 0).val / 2000, ht⟩
  have e0' : win0_4.index ⟨(i 0).val / 2000, ht⟩ (0 : Fin 2) = (i 0).val / 2000 := e0
  refine ⟨⟨(i 0).val / 2000, ht⟩, flush0_4 _, ?_⟩
  rw [mem_block]
  intro a
  match a with
  | ⟨0, _⟩ =>
    show win0_4.index ⟨(i 0).val / 2000, ht⟩ (0 : Fin 2) * 2000 ≤ (i 0).val
      ∧ (i 0).val < win0_4.index ⟨(i 0).val / 2000, ht⟩ (0 : Fin 2) * 2000 + 2000
    omega
  | ⟨1, _⟩ =>
    show win0_4.index ⟨(i 0).val / 2000, ht⟩ (1 : Fin 2) * 256 ≤ (i 1).val
      ∧ (i 1).val < win0_4.index ⟨(i 0).val / 2000, ht⟩ (1 : Fin 2) * 256 + 256
    omega

end Cert.KernelIdeal.Blocks

end
-- ==== Proof.KernelArray.lean ====
/-
  From the grid steps to the whole array. The arrays the region finds are the node features `r` as launched, the
  messages the host summed before the region, and the two weight matrices after a change of float format, which over
  the extended reals changes nothing. By the entry-by-entry reading of one step, what step t writes back is rows
  2000 t … 2000 t + 1999 of the node network applied to those arrays; the 25 row blocks cover all 50000 rows, so after
  the run the result array holds the network applied node by node.
-/
import proofs.«172294_j5325759447401_1_alg».proof.Proof.Gen.KernelIdeal.Value
import proofs.«172294_j5325759447401_1_alg».proof.Proof.KernelRow
import proofs.«172294_j5325759447401_1_alg».proof.Proof.Messages
import proofs.«172294_j5325759447401_1_alg».proof.Proof.Blocks
import Idealize.ShloMosaic.Lib.Pipeline.Value
import Idealize.ShloMosaic.Lib.StableHlo.Run
import Idealize.ShloMosaic.Lib.Tactic

noncomputable section

namespace Cert.KernelIdeal.ArrayValue

open Cert.KernelIdeal Cert.KernelIdeal.Gen Cert.KernelIdeal.HostValue
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the region finds -/

/-- The second operand of the region is the messages the host summed from the edge features. -/
theorem V_messages (c : Dev nD) :
    (V m c main_v4 : S50000x256.Idx → EReal)
      = messages (m ((c : Thread nD τ).loc main_arg1)) (m ((c : Thread nD τ).loc main_arg2)) := by
  dsimp only [Gen.V, Gen.hostOps0]; after_results; rfl

/-- The third operand is the first weight matrix: the change of format before the region is the identity. -/
theorem V_w1 (c : Dev nD) : (V m c main_v5 : S512x512.Idx → EReal) = m ((c : Thread nD τ).loc main_arg3) := by
  dsimp only [Gen.V, Gen.hostOps0]; after_results; rfl

/-- The fourth operand is the second weight matrix, likewise. -/
theorem V_w2 (c : Dev nD) : (V m c main_v6 : S512x256.Idx → EReal) = m ((c : Thread nD τ).loc main_arg4) := by
  dsimp only [Gen.V, Gen.hostOps0]; after_results; rfl

/-! ## Each step's input blocks, in terms of the arguments -/

/-- Entry (p, k) of step t's block of node features is entry (2000 t + p, k) of `r`. -/
theorem own_block (c : Dev nD) (t : Fin cfg0.N) (p : Fin 2000) (k : Fin 256) (n : Fin 50000)
    (hn : n.val = t.val * 2000 + p.val) :
    (iblk m c 0 t : Vec Ideal S2000x256 .f32) (ix2 p k) = (m ((c : Thread nD τ).loc main_arg0) : S50000x256.Idx → EReal) (ix2 n k) :=
  (Blocks.read_own (V m c main_arg0) t p k n hn).trans (congrFun (V_main_arg0 m c) (ix2 n k))

/-- Entry (p, k) of step t's block of messages is entry (2000 t + p, k) of the summed messages. -/
theorem msg_block (c : Dev nD) (t : Fin cfg0.N) (p : Fin 2000) (k : Fin 256) (n : Fin 50000)
    (hn : n.val = t.val * 2000 + p.val) :
    (iblk m c 1 t : Vec Ideal S2000x256 .f32) (ix2 p k)
      = messages (m ((c : Thread nD τ).loc main_arg1)) (m ((c : Thread nD τ).loc main_arg2)) (ix2 n k) :=
  (Blocks.read_msg (V m c main_v4) t p k n hn).trans (congrFun (V_messages m c) (ix2 n k))

/-- Every step is handed the first weight matrix whole. -/
theorem w1_block (c : Dev nD) (t : Fin cfg0.N) (k j : Fin 512) :
    (iblk m c 2 t : Vec Ideal S512x512 .bf16) (ix2 k j) = (m ((c : Thread nD τ).loc main_arg3) : S512x512.Idx → EReal) (ix2 k j) :=
  (Blocks.read_w1 (V m c main_v5) t k j).trans (congrFun (V_w1 m c) (ix2 k j))

/-- Every step is handed the second weight matrix whole. -/
theorem w2_block (c : Dev nD) (t : Fin cfg0.N) (j : Fin 512) (q : Fin 256) :
    (iblk m c 3 t : Vec Ideal S512x256 .bf16) (ix2 j q) = (m ((c : Thread nD τ).loc main_arg4) : S512x256.Idx → EReal) (ix2 j q) :=
  (Blocks.read_w2 (V m c main_v6) t j q).trans (congrFun (V_w2 m c) (ix2 j q))

/-! ## What a step writes back -/

/-- The array the result ends holding: the node network applied node by node to the node features, the summed
    messages and the two weight matrices. -/
abbrev result (c : Dev nD) : S50000x256.Idx → EReal :=
  NodeNet.net (m ((c : Thread nD τ).loc main_arg0))
    (messages (m ((c : Thread nD τ).loc main_arg1)) (m ((c : Thread nD τ).loc main_arg2)))
    (m ((c : Thread nD τ).loc main_arg3)) (m ((c : Thread nD τ).loc main_arg4))

theorem zero_offsets : (![0, 0] : Fin 2 → Nat) = fun _ => 0 := funext fun a => by fin_cases a <;> rfl

/-- Step t writes back rows 2000 t … 2000 t + 1999 of `result`. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero_offsets]
  simp only [View.ld_unit_zero (S := S2000x256) zero_offsets, View.ld_unit_zero (S := S512x512) zero_offsets,
    View.ld_unit_zero (S := S512x256) zero_offsets]
  funext y
  obtain ⟨p, q, rfl⟩ : ∃ (p : Fin 2000) (q : Fin 256), y = ix2 p q := ⟨y 0, y 1, eq_ix2 y⟩
  show k0_pay1 (iblk m c 0 t) (iblk m c 1 t) (iblk m c 2 t) (iblk m c 3 t) (ix2 p q)
    = result m c (((cfg0.win 4).blk t).view.emb (ix2 p q))
  refine (RowValue.pay_entry (iblk m c 0 t) (iblk m c 1 t) (iblk m c 2 t) (iblk m c 3 t) p q).trans ?_
  obtain ⟨hrow, hcol⟩ := Blocks.out_pos t p q
  exact NodeNet.node_congr (fun k => own_block m c t p k _ hrow) (fun k => msg_block m c t p k _ hrow)
    (fun k j => w1_block m c t k j) (fun j q' => w2_block m c t j q') hcol.symm

/-! ## The result array, and the run -/

/-- After the run the result array is `result`: the steps' blocks cover it. -/
theorem final (c : Dev nD) : (dats m 0 c).arrAt 4 cfg0.N = result m c :=
  (dats m 0 c).arrAt_eq_of_cover 4 (result m c) (fun t _ => flushed_eq m c t) Blocks.covered

/-- Every weakly fair execution of the kernel's program ends with the result array at `result` and the arguments
    unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefValue.lean ====
/-
  The reference, read at an entry. The reference sums the messages on the host exactly as the kernel's program does,
  lays the node features and the messages side by side into a 50000 × 512 array, multiplies by the first weight matrix,
  clips below at zero, and multiplies by the second weight matrix — all on whole arrays. Over the extended reals a
  host matrix product is, at entry (n, q), the sum over the contracted axis; so row n of the reference's result is the
  node network on row n of the node features and row n of the messages: the same array the kernel's 25 steps fill.
-/
import proofs.«172294_j5325759447401_1_alg».proof.Proof.Gen.ReferenceIdeal.Read
import proofs.«172294_j5325759447401_1_alg».proof.Proof.LibJoinCols
import proofs.«172294_j5325759447401_1_alg».proof.Proof.NodeNet
import proofs.«172294_j5325759447401_1_alg».proof.Proof.Messages

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Lib.JoinCols

/-- The reference sums the messages by the same four host operations as the kernel's program: one function of the
    edge features and the edge table. -/
theorem messages_eq (h : (⟨S800000x256, .f32⟩ : BufTy).Contents (Elt Ideal)) (nbrs : (⟨S800000x2, .i32⟩ : BufTy).Contents (Elt Ideal)) :
    val_main_v4 (F := Ideal) h nbrs = Cert.KernelIdeal.HostValue.messages h nbrs := rfl

/-- Entry (n, k) of the joined array: the node's own features, then its messages. -/
theorem joined_entry (r : (⟨S50000x256, .f32⟩ : BufTy).Contents (Elt Ideal)) (h : (⟨S800000x256, .f32⟩ : BufTy).Contents (Elt Ideal))
    (nbrs : (⟨S800000x2, .i32⟩ : BufTy).Contents (Elt Ideal)) (n : Fin 50000) (k : Fin 512) :
    val_main_v5 (F := Ideal) r h nbrs (ix2 n k)
      = NodeNet.joined (fun k => r (ix2 n k)) (fun k => Cert.KernelIdeal.HostValue.messages h nbrs (ix2 n k)) k := by
  unfold val_main_v5 NodeNet.joined
  rw [messages_eq]
  split
  · next hk =>
    exact concat_cols_left r (Cert.KernelIdeal.HostValue.messages h nbrs) concatenates_S50000x256_S50000x256_S50000x512_d1 n k hk
  · next hk =>
    exact concat_cols_right r (Cert.KernelIdeal.HostValue.messages h nbrs) concatenates_S50000x256_S50000x256_S50000x512_d1 n k (by omega) _

/-- Entry (n, j) of the clipped hidden array is the node network's hidden entry j on node n. -/
theorem hidden_entry (r : (⟨S50000x256, .f32⟩ : BufTy).Contents (Elt Ideal)) (h : (⟨S800000x256, .f32⟩ : BufTy).Contents (Elt Ideal))
    (nbrs : (⟨S800000x2, .i32⟩ : BufTy).Contents (Elt Ideal)) (W1 : (⟨S512x512, .f32⟩ : BufTy).Contents (Elt Ideal)) (n : Fin 50000) (j : Fin 512) :
    val_main_v7 (F := Ideal) r h nbrs W1 (ix2 n j)
      = NodeNet.hidden (fun k => r (ix2 n k)) (fun k => Cert.KernelIdeal.HostValue.messages h nbrs (ix2 n k)) (fun k j => W1 (ix2 k j)) j := by
  rw [val_main_v7_apply, val_main_call0_v0_apply, val_main_call0_cst_apply, val_main_v6_apply]
  unfold NodeNet.hidden
  refine congrArg (max · NodeNet.floor) ?_
  refine Finset.sum_congr rfl fun k _ => ?_
  have el : lidx_main_v6 (ix2 n j) k = ix2 n k := funext fun a => Fin.ext (by
    match a with
    | ⟨0, _⟩ => rfl
    | ⟨1, _⟩ => rfl)
  have er : ridx_main_v6 (ix2 n j) k = ix2 k j := funext fun a => Fin.ext (by
    match a with
    | ⟨0, _⟩ => rfl
    | ⟨1, _⟩ => rfl)
  rw [el, er, joined_entry]

/-- The reference's result is the node network applied node by node. -/
theorem result_eq (r : (⟨S50000x256, .f32⟩ : BufTy).Contents (Elt Ideal)) (h : (⟨S800000x256, .f32⟩ : BufTy).Contents (Elt Ideal))
    (nbrs : (⟨S800000x2, .i32⟩ : BufTy).Contents (Elt Ideal)) (W1 : (⟨S512x512, .f32⟩ : BufTy).Contents (Elt Ideal))
    (W2 : (⟨S512x256, .f32⟩ : BufTy).Contents (Elt Ideal)) :
    val_main_v8 (F := Ideal) r h nbrs W1 W2 = NodeNet.net r (Cert.KernelIdeal.HostValue.messages h nbrs) W1 W2 := by
  funext i
  obtain ⟨n, q, rfl⟩ : ∃ (n : Fin 50000) (q : Fin 256), i = ix2 n q := ⟨i 0, i 1, eq_ix2 i⟩
  rw [val_main_v8_apply]
  show _ = NodeNet.node (fun k => r (ix2 n k)) (fun k => Cert.KernelIdeal.HostValue.messages h nbrs (ix2 n k))
    (fun k j => W1 (ix2 k j)) (fun j q => W2 (ix2 j q)) q
  unfold NodeNet.node
  refine Finset.sum_congr rfl fun j _ => ?_
  have el : lidx_main_v8 (ix2 n q) j = ix2 n j := funext fun a => Fin.ext (by
    match a with
    | ⟨0, _⟩ => rfl
    | ⟨1, _⟩ => rfl)
  have er : ridx_main_v8 (ix2 n q) j = ix2 j q := funext fun a => Fin.ext (by
    match a with
    | ⟨0, _⟩ => rfl
    | ⟨1, _⟩ => rfl)
  rw [el, er, hidden_entry]

end Cert.ReferenceIdeal.RefValue

end
-- ==== Proof.lean ====
/-
  A message-passing step of a graph network: kernel against reference, over the extended reals.

  Both programs take node features `r` (50000 × 256), edge features `h` (800000 × 256), an edge table `nbrs`
  (800000 × 2) and two weight matrices `W₁` (512 × 512) and `W₂` (512 × 256). Both first sum the edge features into
  the nodes the table's first column names — the same host operations in both, one function `messages h nbrs` — and
  then send every node n through the same small network: its own features and its summed messages laid end to end,
  times `W₁`, clipped below at zero, times `W₂`:

      out (n, q)  =  Σⱼ  max (Σₖ (r n ‖ messages n) k · W₁ (k, j)) 0  ·  W₂ (j, q).

  The reference does this on whole arrays with two host matrix products. The kernel does it 2000 nodes at a time over
  a grid of 25 steps, with TensorCore matrix products into zero accumulators and with changes of float format in
  between. Over the extended reals a change of format is the identity and either kind of matrix product is the plain
  sum over the contracted axis, so each side is the formula above entry by entry (`KernelArray.lean`,
  `RefValue.lean`), and the two results are equal. The only law used is that a finite sum of extended reals does not
  depend on how it is arranged, which holds at the infinities too: the finiteness of the inputs is never opened.

  The three frames are the generated ones (the reference's is its generated run with the result dropped); the
  idealization rewrote nothing, so there is nothing to preserve.
-/
import proofs.«172294_j5325759447401_1_alg».proof.Defs
import proofs.«172294_j5325759447401_1_alg».proof.Proof.Gen.Kernel
import proofs.«172294_j5325759447401_1_alg».proof.Proof.Gen.Kernel.Skeleton
import proofs.«172294_j5325759447401_1_alg».proof.Proof.Gen.Kernel.Launch
import proofs.«172294_j5325759447401_1_alg».proof.Proof.Gen.Kernel.Points
import proofs.«172294_j5325759447401_1_alg».proof.Proof.Gen.Kernel.Frame
import proofs.«172294_j5325759447401_1_alg».proof.Proof.Gen.KernelIdeal
import proofs.«172294_j5325759447401_1_alg».proof.Proof.Gen.KernelIdeal.Skeleton
import proofs.«172294_j5325759447401_1_alg».proof.Proof.Gen.KernelIdeal.Launch
import proofs.«172294_j5325759447401_1_alg».proof.Proof.Gen.KernelIdeal.Points
import proofs.«172294_j5325759447401_1_alg».proof.Proof.Gen.KernelIdeal.Frame
import proofs.«172294_j5325759447401_1_alg».proof.Proof.Gen.ReferenceIdeal
import proofs.«172294_j5325759447401_1_alg».proof.Proof.Gen.Pre_finite_inputs
import proofs.«172294_j5325759447401_1_alg».proof.Proof.Gen.KernelIdeal.Value
import proofs.«172294_j5325759447401_1_alg».proof.Proof.Gen.ReferenceIdeal.Run
import proofs.«172294_j5325759447401_1_alg».proof.Proof.Gen.ReferenceIdeal.Read
import proofs.«172294_j5325759447401_1_alg».proof.Proof.KernelArray
import proofs.«172294_j5325759447401_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel's result array ends at the node network applied node
    by node (the 25 steps' blocks cover it), and the reference's result at the same array: its two whole-array
    products, read at an entry, are the same sums. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
